-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x16384 : Shape := ⟨2, ![3, 16384]⟩
abbrev S8192 : Shape := ⟨1, ![8192]⟩
abbrev S_ : Shape := ⟨0, ![]⟩

class Facts : Prop where
  bcast_S_S3x16384 : S_.BroadcastsInDim S3x16384 (![] : Fin 0 → Fin S3x16384.rank)
  reducesTo_S3x16384_S_d0_1 : S3x16384.ReducesTo [0, 1] S_
  h_S_ : 0 < S_.numel

variable [Facts]

def fn {F : FTy → Type} [FloatOps F] (main_arg0 : FVec F S3x16384 .f32) (main_arg1 : FVec F S3x16384 .f32) (main_arg2 : IVec S8192 32) (main_arg3 : IVec S8192 32) : IVec S_ 1 :=
  let main_v0 : FVec F S3x16384 .f32 := Host.absf main_arg0
  let main_cst : FVec F S_ .f32 := constant S_ .f32 0x7F800000#32
  let main_v1 : FVec F S3x16384 .f32 := broadcastInDim S3x16384 ![] bcast_S_S3x16384 main_cst
  let main_v2 : IVec S3x16384 1 := cmpf .olt main_v0 main_v1
  let main_c : IVec S_ 1 := constantI S_ 1 1#1
  let main_v3 : IVec S_ 1 := (fun x v => Host.reduce IntOp.andi x v reducesTo_S3x16384_S_d0_1 h_S_) main_v2 main_c
  let main_v4 : FVec F S3x16384 .f32 := Host.absf main_arg1
  let main_cst_0 : FVec F S_ .f32 := constant S_ .f32 0x7F800000#32
  let main_v5 : FVec F S3x16384 .f32 := broadcastInDim S3x16384 ![] bcast_S_S3x16384 main_cst_0
  let main_v6 : IVec S3x16384 1 := cmpf .olt main_v4 main_v5
  let main_c_1 : IVec S_ 1 := constantI S_ 1 1#1
  let main_v7 : IVec S_ 1 := (fun x v => Host.reduce IntOp.andi x v reducesTo_S3x16384_S_d0_1 h_S_) main_v6 main_c_1
  let main_v8 : IVec S_ 1 := andi main_v3 main_v7
  main_v8
-- ==== Kernel.lean ====
abbrev S3x16384 : Shape := ⟨2, ![3, 16384]⟩
abbrev S8192 : Shape := ⟨1, ![8192]⟩
abbrev S_ : Shape := ⟨0, ![]⟩
abbrev S8192x1 : Shape := ⟨2, ![8192, 1]⟩
abbrev S3x8192 : Shape := ⟨2, ![3, 8192]⟩
abbrev S1x8192 : Shape := ⟨2, ![1, 8192]⟩
abbrev S3x1024 : Shape := ⟨2, ![3, 1024]⟩
abbrev S3x2048 : Shape := ⟨2, ![3, 2048]⟩
abbrev S1x1024 : Shape := ⟨2, ![1, 1024]⟩
abbrev S2048x1024 : Shape := ⟨2, ![2048, 1024]⟩
abbrev S1024 : Shape := ⟨1, ![1024]⟩
abbrev S2048 : Shape := ⟨1, ![2048]⟩
abbrev S1x2048 : Shape := ⟨2, ![1, 2048]⟩
abbrev S2048x1 : Shape := ⟨2, ![2048, 1]⟩

abbrev nBuf : Space → Nat
  | .hbm => 25
  | .vmem => 7
  | .smem => 0
  | _ => 0

abbrev bufTy : (tb : Table) → Fin (tcTables nBuf tb) → BufTy
  | .hbm, ⟨0, _⟩ => ⟨S3x16384, .f32⟩
  | .hbm, ⟨1, _⟩ => ⟨S3x16384, .f32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S3x8192, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S3x8192, .f32⟩
  | .hbm, ⟨22, _⟩ => ⟨S1x8192, .f32⟩
  | .hbm, ⟨23, _⟩ => ⟨S_, .f32⟩
  | .hbm, ⟨24, _⟩ => ⟨S_, .f32⟩
  | .local _ .vmem, ⟨0, _⟩ => ⟨S3x1024, .f32⟩
  | .local _ .vmem, ⟨1, _⟩ => ⟨S3x1024, .f32⟩
  | .local _ .vmem, ⟨2, _⟩ => ⟨S3x2048, .f32⟩
  | .local _ .vmem, ⟨3, _⟩ => ⟨S3x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S3x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  reduces_S3x1024_S1024 : S3x1024.Reduces [0] S1024
  shapeCasts_S1024_S1x1024 : S1024.ShapeCasts S1x1024
  reduces_S3x2048_S2048 : S3x2048.Reduces [0] S2048
  shapeCasts_S2048_S1x2048 : S2048.ShapeCasts S1x2048
  transposes_S1x2048_p1_0_S2048x1 : S1x2048.Transposes [1, 0] S2048x1
  broadcasts_S2048x1_S2048x1024 : S2048x1.Broadcasts S2048x1024
  broadcasts_S1x1024_S2048x1024 : S1x1024.Broadcasts S2048x1024
  reduces_S2048x1024_S1024 : S2048x1024.Reduces [0] S1024
  reducesTo_S1x8192_S_d0_1 : S1x8192.ReducesTo [0, 1] S_
  h_S_ : 0 < S_.numel
  gather_S3x16384_S8192x1_S3x8192_0_1_n_n_1_1_31_wf : GatherDims.WF S3x16384 S8192x1 S3x8192 [0] [1] [] [1] [] 1 ![3, 1]
  dot_S3x2048_S3x1024_S2048x1024_0_0_1_1_n_n_wf : DotDims.WF S3x2048 S3x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024.size a ≤ S3x8192.size a
  hwx0_0 : ∀ i : grid0.Coords, EltTy.bits .f32 = 32 ∨ (Rect.block (s := S3x8192) S3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x8192.size a
  hwx0_1 : ∀ i : grid0.Coords, EltTy.bits .f32 = 32 ∨ (Rect.block (s := S3x8192) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)

variable [Facts₀]

def gather_S3x16384_S8192x1_S3x8192_0_1_n_n_1_1_31 : GatherDims S3x16384 S8192x1 S3x8192 where
  offsetDims := [0]
  collapsedSliceDims := [1]
  operandBatchingDims := []
  startIndicesBatchingDims := []
  startIndexMap := [1]
  indexVectorDim := 1
  sliceSizes := ![3, 1]
  wf := gather_S3x16384_S8192x1_S3x8192_0_1_n_n_1_1_31_wf
def dot_S3x2048_S3x1024_S2048x1024_0_0_1_1_n_n : DotDims S3x2048 S3x1024 S2048x1024 where
  lhsContracting := [0]
  rhsContracting := [0]
  lhsNonContracting := [1]
  rhsNonContracting := [1]
  lhsBatch := []
  rhsBatch := []
  wf := dot_S3x2048_S3x1024_S2048x1024_0_0_1_1_n_n_wf

abbrev win0_0 : Pipeline.Window sig grid0 :=
  Pipeline.Window.ofSpec (Memref.whole main_v6) S3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S3x16384 : Shape := ⟨2, ![3, 16384]⟩
abbrev S8192 : Shape := ⟨1, ![8192]⟩
abbrev S_ : Shape := ⟨0, ![]⟩
abbrev S8192x1 : Shape := ⟨2, ![8192, 1]⟩
abbrev S3x8192 : Shape := ⟨2, ![3, 8192]⟩
abbrev S8192x3 : Shape := ⟨2, ![8192, 3]⟩
abbrev S1x8192 : Shape := ⟨2, ![1, 8192]⟩
abbrev S8192x8192 : Shape := ⟨2, ![8192, 8192]⟩

abbrev nBuf : Space → Nat
  | .hbm => 45
  | .vmem => 0
  | .smem => 0
  | _ => 0

abbrev bufTy : (tb : Table) → Fin (tcTables nBuf tb) → BufTy
  | .hbm, ⟨0, _⟩ => ⟨S3x16384, .f32⟩
  | .hbm, ⟨1, _⟩ => ⟨S3x16384, .f32⟩
  | .hbm, ⟨2, _⟩ => ⟨S8192, .i32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S3x8192, .f32⟩
  | .hbm, ⟨13, _⟩ => ⟨S8192x3, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S3x8192, .f32⟩
  | .hbm, ⟨23, _⟩ => ⟨S8192x3, .f32⟩
  | .hbm, ⟨24, _⟩ => ⟨S8192x3, .f32⟩
  | .hbm, ⟨25, _⟩ => ⟨S_, .f32⟩
  | .hbm, ⟨26, _⟩ => ⟨S8192, .f32⟩
  | .hbm, ⟨27, _⟩ => ⟨S8192x3, .f32⟩
  | .hbm, ⟨28, _⟩ => ⟨S_, .f32⟩
  | .hbm, ⟨29, _⟩ => ⟨S8192, .f32⟩
  | .hbm, ⟨30, _⟩ => ⟨S1x8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S3x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S_, .f32⟩
  | _, _ => ⟨S3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S3x8192_S8192x3_1_0 : S3x8192.Transposes [1, 0] S8192x3
  reducesTo_S8192x3_S8192_d1 : S8192x3.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d0 : S8192x8192.ReducesTo [0] S8192
  reducesTo_S8192_S_d0 : S8192.ReducesTo [0] S_
  gather_S3x16384_S8192x1_S3x8192_0_1_n_n_1_1_31_wf : GatherDims.WF S3x16384 S8192x1 S3x8192 [0] [1] [] [1] [] 1 ![3, 1]
  dot_S8192x3_S3x8192_S8192x8192_1_0_0_1_n_n_wf : DotDims.WF S8192x3 S3x8192 S8192x8192 [1] [0] [0] [1] [] []

variable [Facts₀]

def gather_S3x16384_S8192x1_S3x8192_0_1_n_n_1_1_31 : GatherDims S3x16384 S8192x1 S3x8192 where
  offsetDims := [0]
  collapsedSliceDims := [1]
  operandBatchingDims := []
  startIndicesBatchingDims := []
  startIndexMap := [1]
  indexVectorDim := 1
  sliceSizes := ![3, 1]
  wf := gather_S3x16384_S8192x1_S3x8192_0_1_n_n_1_1_31_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.LibRunMin.lean ====
/-
  A running minimum. For values `f k` indexed by `k < N` and a starting value `z`, `runMin z f b` is the least of `z`
  and the `f k` with `k < b`. Taking the minimum block by block — the minimum so far against the minimum of the next
  `B` values, itself started from `z` — gives the running minimum at the larger bound: `min` is associative, commutative
  and idempotent, so `z` may enter any number of times. Everything is proved through the universal property of a
  minimum (`c ≤ min … ↔ c ≤ each`), in any linear order.
-/
import Mathlib.Data.Finset.Fold
import Mathlib.Order.Lattice
import Mathlib.Data.Fintype.Basic

namespace Cert.Bridge.RunMin

variable {α : Type*} [LinearOrder α]

/-- The least of `z` and the values `f k` at the indices `k` below `b`. -/
def runMin {N : ℕ} (z : α) (f : Fin N → α) (b : ℕ) : α :=
  (Finset.univ.filter fun k : Fin N => k.val < b).fold min z f

/-- Below `runMin z f b` is below `z` and below every `f k`, `k < b`. -/
theorem le_runMin {N : ℕ} (z : α) (f : Fin N → α) (b : ℕ) (c : α) :
    c ≤ runMin z f b ↔ c ≤ z ∧ ∀ k : Fin N, k.val < b → c ≤ f k := by
  unfold runMin
  rw [Finset.le_fold_min]
  simp only [Finset.mem_filter, Finset.mem_univ, true_and]

/-- Below the minimum of a whole family started from `z` is below `z` and below every member. -/
theorem le_foldMin {B : ℕ} (z : α) (g : Fin B → α) (c : α) :
    c ≤ Finset.univ.fold min z g ↔ c ≤ z ∧ ∀ k : Fin B, c ≤ g k := by
  rw [Finset.le_fold_min]
  simp only [Finset.mem_univ, forall_true_left]

/-- Before any index the running minimum is the starting value. -/
theorem runMin_zero {N : ℕ} (z : α) (f : Fin N → α) : runMin z f 0 = z := by
  refine eq_of_forall_le_iff fun c => ?_
  rw [le_runMin]
  exact ⟨fun h => h.1, fun h => ⟨h, fun k hk => absurd hk (Nat.not_lt_zero _)⟩⟩

/-- At a bound that passes every index it is the minimum of the whole family. -/
theorem runMin_all {N : ℕ} (z : α) (f : Fin N → α) (b : ℕ) (h : N ≤ b) :
    runMin z f b = Finset.univ.fold min z f := by
  refine eq_of_forall_le_iff fun c => ?_
  rw [le_runMin, le_foldMin]
  exact and_congr_right fun _ => forall_congr' fun k =>
    ⟨fun hk => hk (lt_of_lt_of_le k.isLt h), fun hk _ => hk⟩

/-- ONE BLOCK MORE: the running minimum at `b` against the minimum of the next `B` values (`g kk = f (b + kk)`),
    started again from `z`, is the running minimum at `b + B`. -/
theorem runMin_step {N B : ℕ} (z : α) (f : Fin N → α) (g : Fin B → α) (b : ℕ) (hb : b + B ≤ N)
    (hg : ∀ kk : Fin B, g kk = f ⟨b + kk.val, lt_of_lt_of_le (Nat.add_lt_add_left kk.isLt b) hb⟩) :
    min (runMin z f b) (Finset.univ.fold min z g) = runMin z f (b + B) := by
  refine eq_of_forall_le_iff fun c => ?_
  rw [le_min_iff, le_runMin, le_runMin, le_foldMin]
  constructor
  · rintro ⟨⟨hz, h1⟩, _, h2⟩
    refine ⟨hz, fun k hk => ?_⟩
    by_cases hkb : k.val < b
    · exact h1 k hkb
    · have hlt : k.val - b < B := by omega
      have h := h2 ⟨k.val - b, hlt⟩
      rw [hg] at h
      have e : (⟨b + (k.val - b), lt_of_lt_of_le (Nat.add_lt_add_left hlt b) hb⟩ : Fin N) = k :=
        Fin.ext (by show b + (k.val - b) = k.val; omega)
      rwa [e] at h
  · rintro ⟨hz, h⟩
    refine ⟨⟨hz, fun k hk => h k (by omega)⟩, hz, fun kk => ?_⟩
    rw [hg]
    exact h _ (by show b + kk.val < b + B; have := kk.isLt; omega)

/-- THE FIRST BLOCK: the starting value against the first `B` values' minimum is the running minimum at `B`. -/
theorem runMin_first {N B : ℕ} (z : α) (f : Fin N → α) (g : Fin B → α) (hb : B ≤ N)
    (hg : ∀ kk : Fin B, g kk = f ⟨kk.val, lt_of_lt_of_le kk.isLt hb⟩) :
    min z (Finset.univ.fold min z g) = runMin z f B := by
  have h := runMin_step z f g 0 (by omega) (fun kk => by rw [hg]; exact congrArg f (Fin.ext (by show kk.val = 0 + kk.val; omega)))
  rw [runMin_zero, Nat.zero_add] at h
  exact h

end Cert.Bridge.RunMin
-- ==== Proof.ChamferDist.lean ====
/-
  The quantity both programs compute, on the extended reals, from two arrays of sampled points (three coordinates
  each, one point per column):
    sqcol x j        = Σ_c x(c,j)²                                          the squared length of point j,
    dblk xa xb k i   = (sqcol xb k + sqcol xa i) − two · Σ_c xb(c,k)·xa(c,i)  the squared distance of b-point k and
                                                                             a-point i, as the programs spell it,
    nearest xa xb i  = the least of `top` and dblk xa xb k i over all b-points k,
    total xa xb      = zero + Σ_i nearest xa xb i.
  `zero`, `top` and `two` stand for the values of the programs' float words (0.0, +∞ and 2.0); nothing here needs
  to know them.
-/
import Idealize.ShloMosaic.Lib.ValueIdx
import Idealize.ShloMosaic.PureOps.Ideal

noncomputable section

open Idealize.ShloMosaic Idealize.ShloMosaic.ValueIdx

namespace Cert.Chamfer

/-- The squared length of the point in column `j` of a three-row block. -/
def sqcol {n : ℕ} (x : (⟨2, ![3, n]⟩ : Shape).Idx → EReal) (j : Fin n) : EReal :=
  ∑ c : Fin 3, x (ix2 c j) * x (ix2 c j)

/-- The squared distance of b-point `k` and a-point `i`: the two squared lengths added, less `two` times the inner
    product. -/
def dblk {na nb : ℕ} (two : EReal) (xa : (⟨2, ![3, na]⟩ : Shape).Idx → EReal) (xb : (⟨2, ![3, nb]⟩ : Shape).Idx → EReal)
    (k : Fin nb) (i : Fin na) : EReal :=
  (sqcol xb k + sqcol xa i) - two * ∑ c : Fin 3, xb (ix2 c k) * xa (ix2 c i)

/-- A distance depends only on the two points' coordinates: blocks that show the same two points give the same value. -/
theorem dblk_congr {na nb Na Nb : ℕ} (two : EReal) (x0 : (⟨2, ![3, na]⟩ : Shape).Idx → EReal)
    (x1 : (⟨2, ![3, nb]⟩ : Shape).Idx → EReal) (PA : (⟨2, ![3, Na]⟩ : Shape).Idx → EReal)
    (PB : (⟨2, ![3, Nb]⟩ : Shape).Idx → EReal) (k : Fin nb) (i : Fin na) (K : Fin Nb) (I : Fin Na)
    (h0 : ∀ c : Fin 3, x0 (ix2 c i) = PA (ix2 c I)) (h1 : ∀ c : Fin 3, x1 (ix2 c k) = PB (ix2 c K)) :
    dblk two x0 x1 k i = dblk two PA PB K I := by
  unfold dblk sqcol
  simp only [h0, h1]

/-- The least squared distance from a-point `i` to the b-points, started from `top`. -/
def nearest {na nb : ℕ} (top two : EReal) (xa : (⟨2, ![3, na]⟩ : Shape).Idx → EReal)
    (xb : (⟨2, ![3, nb]⟩ : Shape).Idx → EReal) (i : Fin na) : EReal :=
  (Finset.univ : Finset (Fin nb)).fold min top fun k => dblk two xa xb k i

/-- The sum over the a-points of their least squared distances, started from `zero`. -/
def total {na nb : ℕ} (zero top two : EReal) (xa : (⟨2, ![3, na]⟩ : Shape).Idx → EReal)
    (xb : (⟨2, ![3, nb]⟩ : Shape).Idx → EReal) : EReal :=
  zero + ∑ i : Fin na, nearest top two xa xb i

end Cert.Chamfer

end
-- ==== Proof.Pieces.lean ====
/-
  What each case of the body leaves behind, as one value.
  The scratch row carries the running minimum between grid points. Writing `step x0 x1 s` for the body's one
  arithmetic term — the entrywise minimum of the row `s` and the column minima of the distance block of the point
  blocks `x0` (a-points) and `x1` (b-points) — the three cases are:
    first b-block   the scratch is first filled with the starting row, so it ends at `step x0 x1 start`;
    middle b-blocks the scratch ends at `step x0 x1 s` of what the point before left, `s`;
    last b-block    the same, and the output block receives a copy of the scratch.
  Nothing here depends on what the float operations mean.
-/
import proofs.«101776_j67740224192625_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Middle b-blocks: the scratch row ends at the body's term of the two point blocks and the row found there. -/
theorem scratch_B (c : Dev nD) (i : grid0.Coords) (a2 : Memref sig .tc .vmem S3x1024 .f32) (h2 : a2.IsWhole)
    (a3 : Memref sig .tc .vmem S3x2048 .f32) (h3 : a3.IsWhole) (a4 : Memref sig .tc .vmem S1x1024 .f32) (h4 : a4.IsWhole)
    (a5 : Memref sig .tc .vmem S1x1024 .f32) (h5 : a5.IsWhole) (hc0 : ¬cond0_0 i) (hc1 : ¬cond0_1 i)
    (x0 : Vec F S3x1024 .f32) (x1 : Vec F S3x2048 .f32) (xs0 : Vec F S1x1024 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread,
    View.ld_unit_zero (S := S3x1024) hz, View.ld_unit_zero (S := S3x2048) hz, View.ld_unit_zero (S := S1x1024) hz]

/-- Last b-block: the scratch row likewise. -/
theorem scratch_C (c : Dev nD) (i : grid0.Coords) (a2 : Memref sig .tc .vmem S3x1024 .f32) (h2 : a2.IsWhole)
    (a3 : Memref sig .tc .vmem S3x2048 .f32) (h3 : a3.IsWhole) (a4 : Memref sig .tc .vmem S1x1024 .f32) (h4 : a4.IsWhole)
    (a5 : Memref sig .tc .vmem S1x1024 .f32) (h5 : a5.IsWhole) (hc0 : ¬cond0_0 i) (hc1 : cond0_1 i)
    (x0 : Vec F S3x1024 .f32) (x1 : Vec F S3x2048 .f32) (xs0 : Vec F S1x1024 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread,
    View.ld_unit_zero (S := S3x1024) hz, View.ld_unit_zero (S := S3x2048) hz, View.ld_unit_zero (S := S1x1024) hz]

/-- Last b-block: the output block is the scratch row just stored, read back. -/
theorem out_C (c : Dev nD) (i : grid0.Coords) (a2 : Memref sig .tc .vmem S3x1024 .f32) (h2 : a2.IsWhole)
    (a3 : Memref sig .tc .vmem S3x2048 .f32) (h3 : a3.IsWhole) (a4 : Memref sig .tc .vmem S1x1024 .f32) (h4 : a4.IsWhole)
    (a5 : Memref sig .tc .vmem S1x1024 .f32) (h5 : a5.IsWhole) (hc0 : ¬cond0_0 i) (hc1 : cond0_1 i)
    (x0 : Vec F S3x1024 .f32) (x1 : Vec F S3x2048 .f32) (xs0 : Vec F S1x1024 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1024) _ hz]
  simp only [View.readAt_eq_ld, h2.read_unread, h3.read_unread, h5.read_unread,
    View.ld_unit_zero (S := S3x1024) hz, View.ld_unit_zero (S := S3x2048) hz, View.ld_unit_zero (S := S1x1024) hz]

/-- First b-block: the scratch is filled with the starting row, read back, and ends at the body's term of it. -/
theorem scratch_A (c : Dev nD) (i : grid0.Coords) (a2 : Memref sig .tc .vmem S3x1024 .f32) (h2 : a2.IsWhole)
    (a3 : Memref sig .tc .vmem S3x2048 .f32) (h3 : a3.IsWhole) (a4 : Memref sig .tc .vmem S1x1024 .f32) (h4 : a4.IsWhole)
    (a5 : Memref sig .tc .vmem S1x1024 .f32) (h5 : a5.IsWhole) (hc0 : cond0_0 i) (hc1 : ¬cond0_1 i)
    (x0 : Vec F S3x1024 .f32) (x1 : Vec F S3x2048 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) hz, View.readCov_unit_zero (S := S1x1024) _ hz]
  simp only [View.readAt_eq_ld, h2.read_unread, h3.read_unread,
    View.ld_unit_zero (S := S3x1024) hz, View.ld_unit_zero (S := S3x2048) hz]

end Cert.KernelIdeal.Pieces

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.LibColReduce.lean ====
/-
  Reductions down the rows of a rank-2 array, read at a column, on the extended reals — for any extents [a, n]:
    * the index over column `i` whose row coordinate is `k` is `(k, i)`;
    * a vector sum down the rows at column `j` is Σ_k v(k, j);
    * a vector minimum down the rows at column `i` is the fold of `min` from the accumulator word's value over v(k, i);
    * the host's one-operand reduce with a minimum body down the rows is the same fold from its initial value;
  and a sum over a rank-1 index set is the sum over its one coordinate.
-/
import Idealize.ShloMosaic.Lib.ValueIdx
import Idealize.ShloMosaic.PureOps.Ideal.Laws
import Idealize.ShloMosaic.PureOps.Reduce

noncomputable section

open Idealize.ShloMosaic Idealize.ShloMosaic.ValueIdx

namespace Cert.Bridge.ColReduce

/-- A rank-1 index is its one coordinate. -/
def idxEquiv1 {n : ℕ} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : ℕ} (f : (⟨1, ![n]⟩ : Shape).Idx → M) :
    ∑ j, f j = ∑ a : Fin n, f (ix1 a) :=
  (Equiv.sum_comp idxEquiv1.symm f).symm

/-- Over column `i`, the index with row coordinate `k` put back is `(k, i)`. -/
theorem lift_col {a n : ℕ} (h : (⟨2, ![a, n]⟩ : Shape).Reduces [0] ⟨1, ![n]⟩) (i : Fin n) (k : Fin a) :
    h.lift (ix1 i) k = ix2 k i :=
  funext fun ax => Fin.ext (by
    match ax with
    | ⟨0, _⟩ => rfl
    | ⟨1, _⟩ => rfl)

variable {φ : FTy}

/-- The sum down the rows, at column `j`. -/
theorem sumcol_apply {a n : ℕ} (v : FVec Ideal ⟨2, ![a, n]⟩ φ) (acc : BitVec φ.bits)
    (h : (⟨2, ![a, n]⟩ : Shape).Reduces [0] ⟨1, ![n]⟩)
    (hφ : FKind.Formats φ) (hacc : acc = FKind.add.neutral φ hφ) (j : Fin n) :
    multiReduction .add [0] ⟨1, ![n]⟩ v acc h hφ hacc (ix1 j) = ∑ k : Fin a, v (ix2 k j) := by
  refine (Ideal.multiReduction_add_single v acc h hφ hacc (ix1 j)).trans ?_
  exact Finset.sum_congr rfl fun k _ => congrArg v (lift_col h j k)

/-- The least value down the rows, at column `i`: the fold of `min` from the accumulator word's value. -/
theorem mincol_apply {a n : ℕ} (v : FVec Ideal ⟨2, ![a, n]⟩ φ) (acc : BitVec φ.bits)
    (h : (⟨2, ![a, n]⟩ : Shape).Reduces [0] ⟨1, ![n]⟩)
    (hφ : FKind.Formats φ) (hacc : acc = FKind.minimumf.neutral φ hφ) (i : Fin n) :
    multiReduction .minimumf [0] ⟨1, ![n]⟩ v acc h hφ hacc (ix1 i)
      = (Finset.univ : Finset (Fin a)).fold min (Ideal.ofBits φ acc) fun k => v (ix2 k i) := by
  refine (multiReduction_minimumf_eq_fold v acc h hφ hacc (ix1 i)).trans ?_
  refine (h.fold_filter_drop_single _ _ v (ix1 i)).trans ?_
  exact congrArg (fun f => (Finset.univ : Finset (Fin a)).fold min (Ideal.ofBits φ acc) f)
    (funext fun k => congrArg v (lift_col h i k))

/-- The host's reduce with a minimum body down the rows, at column `i`: the same fold from its initial value. -/
theorem hostMincol_apply {a n : ℕ} {u : Shape} (x : (⟨2, ![a, n]⟩ : Shape).Idx → Ideal φ) (init : u.Idx → Ideal φ)
    (h' : (⟨2, ![a, n]⟩ : Shape).ReducesTo [0] ⟨1, ![n]⟩) (h : (⟨2, ![a, n]⟩ : Shape).Reduces [0] ⟨1, ![n]⟩)
    (hu : 0 < u.numel) (i : Fin n) :
    Host.reduce (FloatOps.minimumf (F := Ideal) (φ := φ)) x init h' hu (ix1 i)
      = (Finset.univ : Finset (Fin a)).fold min (init (Shape.Idx.first hu)) fun k => x (ix2 k i) := by
  refine (Host.reduce_eq_fold_single FloatOps.minimumf x init h' h hu (ix1 i)).trans ?_
  exact congrArg (fun f => (Finset.univ : Finset (Fin a)).fold min (init (Shape.Idx.first hu)) f)
    (funext fun k => congrArg x (lift_col h i k))

end Cert.Bridge.ColReduce

end
-- ==== Proof.Payload.lean ====
/-
  The body's arithmetic, entry by entry, on the extended reals.
  For a block `x0` of a-points and a block `x1` of b-points (three coordinates each, one point per column) write
    sqcol x j      = Σ_c x(c,j)²                                     the squared length of point j,
    dblk x0 x1 k i = (sqcol x1 k + sqcol x0 i) − 2 · Σ_c x1(c,k)·x0(c,i)   the squared distance of b-point k and a-point i.
  The body's term at column i of its one row is the smaller of the row it found there and the least of
  `dblk x0 x1 k i` over the block's b-points k, the least being taken from the starting value upward through every k.
  The steps: a product into the zero block is the plain sum of products over the three coordinates; a sum down the
  three rows is that sum; a row recast as a column, a column repeated along the rows and a row repeated down the
  columns read the entry they came from; a minimum down the rows is the fold of `min` over the rows.
-/
import proofs.«101776_j67740224192625_2_alg».proof.Proof.Gen.KernelIdeal.Skeleton
import proofs.«101776_j67740224192625_2_alg».proof.Proof.LibLayout
import proofs.«101776_j67740224192625_2_alg».proof.Proof.ChamferDist
import proofs.«101776_j67740224192625_2_alg».proof.Proof.LibColReduce
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.Chamfer Cert.Bridge.Layout Cert.Bridge.ColReduce

/-- The sum down the three rows of the entrywise squares, at column `j`: the point's squared length. -/
theorem sumsq_apply {n : ℕ} (v : FVec Ideal ⟨2, ![3, n]⟩ .f32) (h : (⟨2, ![3, n]⟩ : Shape).Reduces [0] ⟨1, ![n]⟩)
    (hφ : FKind.Formats .f32) (hacc : (0x00000000#32 : BitVec 32) = FKind.add.neutral .f32 hφ) (j : Fin n) :
    multiReduction .add [0] ⟨1, ![n]⟩ (mulf v v) 0x00000000#32 h hφ hacc (ix1 j) = sqcol v j :=
  sumcol_apply (mulf v v) 0x00000000#32 h hφ hacc j

/-- The block product's dimension record: the b-block's and the a-block's coordinate axes contracted. -/
abbrev crossDims := dot_S3x2048_S3x1024_S2048x1024_0_0_1_1_n_n

/-- The left operand is read at the output's row on its point axis. -/
theorem cross_lhs_point (j : S2048x1024.Idx) (q : crossDims.contr.Idx) : (crossDims.lhsIdx j q 1).val = (j 0).val := by
  unfold DotDims.lhsIdx
  rw [dif_neg (show ¬(1 : Fin S3x2048.rank) ∈ crossDims.lhsBatch by decide),
    dif_pos (show (1 : Fin S3x2048.rank) ∈ crossDims.lhsNonContracting by decide)]
  rfl

/-- The right operand is read at the output's column on its point axis. -/
theorem cross_rhs_point (j : S2048x1024.Idx) (q : crossDims.contr.Idx) : (crossDims.rhsIdx j q 1).val = (j 1).val := by
  unfold DotDims.rhsIdx
  rw [dif_neg (show ¬(1 : Fin S3x1024.rank) ∈ crossDims.rhsBatch by decide),
    dif_pos (show (1 : Fin S3x1024.rank) ∈ crossDims.rhsNonContracting by decide)]
  rfl

/-- The product of the transposed b-block with the a-block into the zero block, at (k, i): the inner product of
    b-point `k` and a-point `i` over the three coordinates. -/
theorem cross_apply (x1 : FVec Ideal S3x2048 .f32) (x0 : FVec Ideal S3x1024 .f32) (k : Fin 2048) (i : Fin 1024) :
    matmul crossDims (some .fp32) x1 x0 (constant S2048x1024 .f32 0x00000000#32) (ix2 k i)
      = ∑ c : Fin 3, x1 (ix2 c k) * x0 (ix2 c i) := by
  simp only [matmul]
  rw [Ideal.matmul_constant_zero_apply, ← Equiv.sum_comp (contrEquiv1 crossDims 3 rfl rfl).symm]
  refine Finset.sum_congr rfl fun c _ => ?_
  have hk := contrEquiv1_symm_val crossDims 3 rfl rfl c
  have el : crossDims.lhsIdx (ix2 k i) ((contrEquiv1 crossDims 3 rfl rfl).symm c) = ix2 c k :=
    funext fun a => Fin.ext (by
      match a with
      | ⟨0, _⟩ => exact (crossDims.lhsIdx_val_of_single rfl _ _).trans hk
      | ⟨1, _⟩ => exact cross_lhs_point _ _)
  have er : crossDims.rhsIdx (ix2 k i) ((contrEquiv1 crossDims 3 rfl rfl).symm c) = ix2 c i :=
    funext fun a => Fin.ext (by
      match a with
      | ⟨0, _⟩ => exact (crossDims.rhsIdx_val_of_single rfl _ _).trans hk
      | ⟨1, _⟩ => exact cross_rhs_point _ _)
  rw [el, er]

/-- The starting row: every entry is the starting word's value. -/
theorem start_apply (u : Fin 1) (i : Fin 1024) :
    k0_pay1 (F := Ideal) (ix2 u i) = Ideal.ofBits .f32 0x7F800000#32 := rfl

/-- THE BODY'S TERM at column `i`: the row found there against the least squared distance from a-point `i` of the
    a-block to the b-points of the b-block. -/
theorem step_apply (x0 : Vec Ideal S3x1024 .f32) (x1 : Vec Ideal S3x2048 .f32) (xs : Vec Ideal S1x1024 .f32)
    (u : Fin 1) (i : Fin 1024) :
    k0_pay2 (F := Ideal) x0 x1 xs (ix2 u i)
      = min (xs (ix2 u i)) ((Finset.univ : Finset (Fin 2048)).fold min (Ideal.ofBits .f32 0x7F800000#32)
          fun k => dblk (Ideal.ofBits .f32 0x40000000#32) x0 x1 k i) := by
  unfold k0_pay2
  dsimp only
  simp only [shapeCast_self]
  -- the row found there, against the column's least distance
  show min (xs (ix2 u i)) (shapeCast S1x1024 _ shapeCasts_S1024_S1x1024 (ix2 u i)) = _
  refine congrArg (min (xs (ix2 u i))) ?_
  refine (shapeCast_a_1a_apply _ _ u i).trans ?_
  refine (mincol_apply _ _ _ _ _ i).trans ?_
  refine congrArg (fun f => (Finset.univ : Finset (Fin 2048)).fold min (Ideal.ofBits .f32 0x7F800000#32) f)
    (funext fun k => ?_)
  -- one distance: the two squared lengths, repeated along rows and columns, less twice the inner product
  show (broadcastTo S2048x1024 _ broadcasts_S2048x1_S2048x1024 (ix2 k i)
      + broadcastTo S2048x1024 _ broadcasts_S1x1024_S2048x1024 (ix2 k i))
    - Ideal.ofBits .f32 0x40000000#32 * matmul crossDims (some .fp32) x1 x0 (constant S2048x1024 .f32 0x00000000#32) (ix2 k i) = _
  unfold dblk
  refine congrArg₂ (· - ·) (congrArg₂ (· + ·) ?_ ?_)
    (congrArg (Ideal.ofBits .f32 0x40000000#32 * ·) (cross_apply x1 x0 k i))
  · exact (broadcastTo_a1_an_apply _ _ k i).trans ((transpose_ix2_apply _ _ k (0 : Fin 1)).trans
      ((shapeCast_a_1a_apply _ _ (0 : Fin 1) k).trans (sumsq_apply x1 _ _ _ k)))
  · exact (broadcastTo_1b_ab_apply _ _ k i).trans
      ((shapeCast_a_1a_apply _ _ (0 : Fin 1) i).trans (sumsq_apply x0 _ _ _ i))

end Cert.KernelIdeal.Payload

end
-- ==== Proof.Blocks.lean ====
/-
  Which points a grid position sees.
  The grid has 8 positions along the a-points (1024 each) and 4 along the b-points (2048 each), the b-axis running
  fastest: position `t` is a-block `t / 4` and b-block `t % 4`. Column `ii` of the a-block staged at `t` is a-point
  `1024·(t/4) + ii` of the sampled a-array, column `kk` of the b-block is b-point `2048·(t%4) + kk` of the sampled
  b-array, coordinate by coordinate. The point numbers are written as total functions (reduced modulo 8192, which
  changes nothing at a real grid position), so that no bound has to travel with them.
-/
import proofs.«101776_j67740224192625_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

/-- a-point `ii` of a-block `ib`. -/
def apoint (ib : ℕ) (ii : Fin 1024) : Fin 8192 := ⟨(1024 * ib + ii.val) % 8192, Nat.mod_lt _ (by decide)⟩
/-- b-point `kk` of b-block `kb`. -/
def bpoint (kb : ℕ) (kk : Fin 2048) : Fin 8192 := ⟨(2048 * kb + kk.val) % 8192, Nat.mod_lt _ (by decide)⟩

theorem apoint_val (ib : ℕ) (hib : ib < 8) (ii : Fin 1024) : (apoint ib ii).val = 1024 * ib + ii.val := by
  show (1024 * ib + ii.val) % 8192 = _
  have := ii.isLt; omega
theorem bpoint_val (kb : ℕ) (hkb : kb < 4) (kk : Fin 2048) : (bpoint kb kk).val = 2048 * kb + kk.val := by
  show (2048 * kb + kk.val) % 8192 = _
  have := kk.isLt; omega

/-- The block each window stages at position `t`: the a-window and the output follow `t / 4`, the b-window `t % 4`;
    all three take the whole coordinate axis. Decided over the 32 positions. -/
theorem block_index : ∀ t : Fin cfg0.N,
    win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 2) = 0 ∧ win0_2.index t (1 : Fin 2) = t.val / 4 :=
  (by decide +kernel : ∀ t : Fin grid0.N, _)

theorem pos_lt (t : Fin cfg0.N) : t.val < 32 := lt_of_lt_of_eq t.isLt (show cfg0.N = 32 from N_0)

variable {F : FTy → Type} [FloatOps F]
variable (m : (ℓ : Loc nD τ sig) → Buf (Elt F) ℓ)

/-- The a-block at position `t`, coordinate `cc`, column `ii`: the sampled a-array at that a-point. -/
theorem ablock_apply (c : Dev nD) (t : Fin cfg0.N) (cc : Fin 3) (ii : Fin 1024) :
    (iblk m c 0 t : Vec F S3x1024 .f32) (ix2 cc ii) = V m c main_v6 (ix2 cc (apoint (t.val / 4) ii)) := by
  unfold iblk
  rw [View.read_apply]
  show V m c main_v6 _ = V m c main_v6 _
  congr 1
  funext a
  apply Fin.ext
  have ht := pos_lt t
  match a with
  | ⟨0, _⟩ => show win0_0.index t 0 * 3 + 1 * cc.val = cc.val; rw [(block_index t).1]; omega
  | ⟨1, _⟩ =>
    show win0_0.index t 1 * 1024 + 1 * ii.val = (1024 * (t.val / 4) + ii.val) % 8192
    rw [(block_index t).2.1]; have := ii.isLt; omega

/-- The b-block at position `t`, coordinate `cc`, column `kk`: the sampled b-array at that b-point. -/
theorem bblock_apply (c : Dev nD) (t : Fin cfg0.N) (cc : Fin 3) (kk : Fin 2048) :
    (iblk m c 1 t : Vec F S3x2048 .f32) (ix2 cc kk) = V m c main_v13 (ix2 cc (bpoint (t.val % 4) kk)) := by
  unfold iblk
  rw [View.read_apply]
  show V m c main_v13 _ = V m c main_v13 _
  congr 1
  funext a
  apply Fin.ext
  have ht := pos_lt t
  match a with
  | ⟨0, _⟩ => show win0_1.index t 0 * 3 + 1 * cc.val = cc.val; rw [(block_index t).2.2.1]; omega
  | ⟨1, _⟩ =>
    show win0_1.index t 1 * 2048 + 1 * kk.val = (2048 * (t.val % 4) + kk.val) % 8192
    rw [(block_index t).2.2.2.1]; have := kk.isLt; omega

end Cert.KernelIdeal.Blocks

end
-- ==== Proof.Running.lean ====
/-
  The scratch row is a running minimum.
  Fix an a-block `ib` (positions 4·ib … 4·ib+3) and a column `ii` of it, that is a-point I = 1024·ib + ii. After
  position `n = 4·ib + kb` the scratch row holds, at column `ii`, the least of the starting value and the squared
  distances from I to the b-points below 2048·(kb+1): the first position of the a-block starts the row afresh and
  takes b-block 0, every later position takes the least of what it found and its own b-block. After the last position
  of the a-block (kb = 3) that is the least over all 8192 b-points, and the output block holds the same row.
  By induction on the position; one block's step is the pure fact about running minima.
-/
import proofs.«101776_j67740224192625_2_alg».proof.Proof.LibRunMin
import proofs.«101776_j67740224192625_2_alg».proof.Proof.ChamferDist
import proofs.«101776_j67740224192625_2_alg».proof.Proof.Pieces
import proofs.«101776_j67740224192625_2_alg».proof.Proof.Payload
import proofs.«101776_j67740224192625_2_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.Chamfer Cert.Bridge.RunMin Cert.KernelIdeal.Pieces
  Cert.KernelIdeal.Payload Cert.KernelIdeal.Blocks

/-! ## What the scratch row and the output block hold after a position, case by case (any float values) -/

section Cases
variable {F : FTy → Type} [FloatOps F]
variable (m : (ℓ : Loc nD τ sig) → Buf (Elt F) ℓ)

theorem scratch_first (c : Dev nD) (t : Fin cfg0.N) (h0 : t.val % 4 = 0) (h1 : ¬t.val % 4 = 3) :
    (outsAt0 m c t.val t.isLt).2 = k0_pay2 (iblk m c 0 t) (iblk m c 1 t) (k0_pay1 (F := F)) := by
  rw [outsAt0_A m c t h0 h1]
  dsimp only
  exact scratch_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

theorem scratch_middle (c : Dev nD) (t : Fin cfg0.N) (h0 : ¬t.val % 4 = 0) (h1 : ¬t.val % 4 = 3) :
    (outsAt0 m c t.val t.isLt).2 = k0_pay2 (iblk m c 0 t) (iblk m c 1 t)
      (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem scratch_last (c : Dev nD) (t : Fin cfg0.N) (h0 : ¬t.val % 4 = 0) (h1 : t.val % 4 = 3) :
    (outsAt0 m c t.val t.isLt).2 = k0_pay2 (iblk m c 0 t) (iblk m c 1 t)
      (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- At the last position of an a-block the output block is the scratch row. -/
theorem out_last (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (scratch_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2).symm

end Cases

/-! ## The running minimum, on the extended reals -/

variable (m : (ℓ : Loc nD τ sig) → Buf (Elt Ideal) ℓ)

/-- The value every minimum starts from, and the factor in front of the inner product: the programs' float words. -/
abbrev top : EReal := Ideal.ofBits .f32 0x7F800000#32
abbrev two : EReal := Ideal.ofBits .f32 0x40000000#32

/-- The squared distances from a-point `I` to the b-points, over the sampled arrays as the region finds them. -/
def dists (c : Dev nD) (I : Fin 8192) : Fin 8192 → EReal :=
  fun k => dblk two (V m c main_v6 : S3x8192.Idx → EReal) (V m c main_v13 : S3x8192.Idx → EReal) k I

/-- A block's distance is the arrays' distance at the points the position shows. -/
theorem block_dists (c : Dev nD) (t : Fin cfg0.N) (ii : Fin 1024) (kk : Fin 2048) :
    dblk two (iblk m c 0 t : Vec Ideal S3x1024 .f32) (iblk m c 1 t : Vec Ideal S3x2048 .f32) kk ii
      = dists m c (apoint (t.val / 4) ii) (bpoint (t.val % 4) kk) :=
  dblk_congr two _ _ _ _ kk ii _ _ (fun cc => ablock_apply m c t cc ii) (fun cc => bblock_apply m c t cc kk)

/-- THE INVARIANT. After position `n` the scratch row holds, at column `ii`, the running minimum of the distances
    from a-point `1024·(n/4) + ii` to the b-points below `2048·(n%4 + 1)`. -/
theorem scratch_eq (c : Dev nD) (n : ℕ) : ∀ (h : n < cfg0.N) (ii : Fin 1024),
    (outsAt0 m c n h).2 (ix2 (0 : Fin 1) ii)
      = runMin top (dists m c (apoint (n / 4) ii)) (2048 * (n % 4 + 1)) := by
  induction n using Nat.strong_induction_on with
  | _ n ih =>
    intro h ii
    have hN : n < 32 := lt_of_lt_of_eq h (show cfg0.N = 32 from N_0)
    -- what this position's b-block contributes: the distances to b-points 2048·(n%4) … 2048·(n%4)+2047
    have hblock : ∀ kk : Fin 2048,
        dblk two (iblk m c 0 ⟨n, h⟩ : Vec Ideal S3x1024 .f32) (iblk m c 1 ⟨n, h⟩ : Vec Ideal S3x2048 .f32) kk ii
          = dists m c (apoint (n / 4) ii)
              ⟨2048 * (n % 4) + kk.val, lt_of_lt_of_le (Nat.add_lt_add_left kk.isLt _) (by omega)⟩ := fun kk =>
      (block_dists m c ⟨n, h⟩ ii kk).trans
        (congrArg (dists m c (apoint (n / 4) ii)) (Fin.ext (bpoint_val (n % 4) (by omega) kk)))
    by_cases h0 : n % 4 = 0
    · -- the a-block's first position: the row starts afresh
      have h1 : ¬n % 4 = 3 := by omega
      refine (congrFun (scratch_first m c ⟨n, h⟩ h0 h1) _).trans ?_
      refine (step_apply (iblk m c 0 ⟨n, h⟩) (iblk m c 1 ⟨n, h⟩) (k0_pay1 (F := Ideal)) 0 ii).trans ?_
      rw [start_apply, show 2048 * (n % 4 + 1) = 2048 from by omega]
      refine runMin_first top (dists m c (apoint (n / 4) ii)) _ (by decide) fun kk => ?_
      refine (hblock kk).trans (congrArg (dists m c (apoint (n / 4) ii)) (Fin.ext ?_))
      show 2048 * (n % 4) + kk.val = kk.val
      omega
    · -- a later position: the least of what the position before left and this b-block
      have hprev := ih (n - 1) (by omega) (Nat.lt_of_le_of_lt (Nat.sub_le _ _) h) ii
      rw [show (n - 1) / 4 = n / 4 from by omega, show 2048 * ((n - 1) % 4 + 1) = 2048 * (n % 4) from by omega] at hprev
      have hstep : (outsAt0 m c n h).2
          = k0_pay2 (iblk m c 0 ⟨n, h⟩) (iblk m c 1 ⟨n, h⟩)
              (outsAt0 m c (n - 1) (Nat.lt_of_le_of_lt (Nat.sub_le _ _) h)).2 := by
        by_cases h1 : n % 4 = 3
        · exact scratch_last m c ⟨n, h⟩ h0 h1
        · exact scratch_middle m c ⟨n, h⟩ h0 h1
      refine (congrFun hstep _).trans ?_
      refine (step_apply (iblk m c 0 ⟨n, h⟩) (iblk m c 1 ⟨n, h⟩)
        (outsAt0 m c (n - 1) (Nat.lt_of_le_of_lt (Nat.sub_le _ _) h)).2 0 ii).trans ?_
      rw [hprev, show 2048 * (n % 4 + 1) = 2048 * (n % 4) + 2048 from by omega]
      exact runMin_step top (dists m c (apoint (n / 4) ii)) _ (2048 * (n % 4)) (by omega) hblock

/-- After the last position of an a-block the scratch row — and with it the output block — holds the least distance
    from each of its a-points to ALL the b-points. -/
theorem out_eq (c : Dev nD) (t : Fin cfg0.N) (h1 : t.val % 4 = 3) (ii : Fin 1024) :
    (outsAt0 m c t.val t.isLt).1 (ix2 (0 : Fin 1) ii)
      = (Finset.univ : Finset (Fin 8192)).fold min top (dists m c (apoint (t.val / 4) ii)) := by
  have h0 : ¬t.val % 4 = 0 := by omega
  rw [out_last m c t h0 h1, scratch_eq m c t.val t.isLt ii]
  exact runMin_all top _ _ (by omega)

end Cert.KernelIdeal.Running

end
-- ==== Proof.KernelValue.lean ====
/-
  What the kernel program returns, on the extended reals.
  The output row. Only the last position of each a-block writes its block back (positions 4·ib + 3), and that block is
  columns 1024·ib … 1024·ib + 1023 of the one-row result: it holds, at each column, the least squared distance from
  that a-point to all 8192 b-points (the running minimum at its full bound). The eight written blocks tile the row, so
  after the region the whole row is `nearestRow`: column I holds the least distance from a-point I.
  The host line after the region sums the row from 0.0: the result is `total` of the two sampled arrays as the region
  finds them — and those are the host's column lookups of the two argument arrays at the normalised index vectors,
  which the lines before the region compute.
-/
import proofs.«101776_j67740224192625_2_alg».proof.Proof.Running
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.Chamfer Cert.KernelIdeal.Blocks Cert.KernelIdeal.Running

variable (m : (ℓ : Loc nD τ sig) → Buf (Elt Ideal) ℓ) (ρ : Dev nD → PrngReg)

/-- The value the sum starts from: the programs' zero word. -/
abbrev zero : EReal := Ideal.ofBits .f32 0x00000000#32

/-- The result row: column `I` holds the least squared distance from a-point `I` to the b-points. -/
def nearestRow (c : Dev nD) : S1x8192.Idx → EReal := fun j =>
  (Finset.univ : Finset (Fin 8192)).fold min top (dists m c ⟨(j 1).val, idx2_lt1 j⟩)

/-- WHAT A WRITING POSITION WRITES BACK is its block of the result row. -/
theorem flushed_eq (c : Dev nD) (t : Fin cfg0.N) (hf : (cfg0.win 2).flush t = true) :
    (dats m 0 c).flushed 2 t = ((cfg0.win 2).blk t).view.read (Elt Ideal) (nearestRow m c) := by
  have h3 : t.val % 4 = 3 := (flush0_2 t).mp hf
  have ht := pos_lt t
  show (cfg0.win 2).cut (grid0.coords t) ((dats m 0 c).after 2 t) = _
  rw [after0_2]
  funext y
  obtain ⟨u, ii, rfl⟩ : ∃ (u : Fin 1) (ii : Fin 1024), (y : S1x1024.Idx) = ix2 u ii := ⟨y 0, y 1, eq_ix2 y⟩
  obtain rfl : u = 0 := Subsingleton.elim _ _
  show (outsAt0 m c t.val t.isLt).1 (ix2 (0 : Fin 1) ii) = nearestRow m c (((cfg0.win 2).blk t).view.emb (ix2 (0 : Fin 1) ii))
  rw [out_eq m c t h3 ii]
  unfold nearestRow
  refine congrArg (fun I => (Finset.univ : Finset (Fin 8192)).fold min top (dists m c I)) (Fin.ext ?_)
  show (1024 * (t.val / 4) + ii.val) % 8192 = win0_2.index t 1 * 1024 + 1 * ii.val
  rw [(block_index t).2.2.2.2.2]; have := ii.isLt; omega

/-- An index of the result row is in position `t`'s block iff each coordinate is in the block's range. -/
theorem mem_blk (t : Fin cfg0.N) (i : S1x8192.Idx) :
    i ∈ ((cfg0.win 2).blk t).view.set ↔ ∀ a : Fin 2, win0_2.index t a * S1x1024.size a ≤ (i a).val
      ∧ (i a).val < win0_2.index t a * S1x1024.size a + S1x1024.size a := by
  show i ∈ ((View.whole main_v14).slice (win0_2.rect t)).set ↔ _
  rw [View.set_slice_whole, Rect.mem_set_unit]
  exact Iff.rfl

/-- Every column is in the block the last position of its a-block writes. -/
theorem covered (i : S1x8192.Idx) :
    ∃ t : Fin cfg0.N, (cfg0.win 2).flush t = true ∧ i ∈ ((cfg0.win 2).blk t).view.set := by
  have hi0 : (i 0).val < 1 := (i 0).isLt
  have hi1 : (i 1).val < 8192 := (i 1).isLt
  have hN : cfg0.N = 32 := N_0
  refine ⟨⟨4 * ((i 1).val / 1024) + 3, by rw [hN]; omega⟩, (flush0_2 _).mpr (by show (4 * ((i 1).val / 1024) + 3) % 4 = 3; omega), ?_⟩
  rw [mem_blk]
  obtain ⟨-, -, -, -, e0, e1⟩ := block_index ⟨4 * ((i 1).val / 1024) + 3, by rw [hN]; omega⟩
  intro a
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 1024 ≤ (i 1).val ∧ (i 1).val < win0_2.index _ (1 : Fin 2) * 1024 + 1024
    rw [e1]; show (4 * ((i 1).val / 1024) + 3) / 4 * 1024 ≤ (i 1).val ∧ (i 1).val < (4 * ((i 1).val / 1024) + 3) / 4 * 1024 + 1024
    omega

/-- THE RESULT ROW after the region. -/
theorem final_row (c : Dev nD) : (dats m 0 c).arrAt 2 cfg0.N = nearestRow m c :=
  (dats m 0 c).arrAt_eq_of_cover 2 (nearestRow m c) (flushed_eq m c) covered

/-- The host line after the region: the sum of the result row from the zero word. -/
theorem tail_eq (c : Dev nD) :
    (Pipeline.afterTail₀ cfgs (dats m) 0 (V0 m) [hostOps1] c main_v15 : S_.Idx → EReal)
      = fun _ => total zero top two (V m c main_v6 : S3x8192.Idx → EReal) (V m c main_v13 : S3x8192.Idx → EReal) := by
  unfold Pipeline.afterTail₀
  show StableHlo.after hostOps1 _ (Proc.devRef .tc main_v15) = _
  after_results
  have hrow : Pipeline.withArrays (cfgs 0).spec c (V0 m c) (fun w => (dats m 0 c).arrAt w (cfgs 0).N)
      (Proc.devRef .tc main_v14) = nearestRow m c :=
    (Pipeline.withArrays_arr spec0 launch0.win.arr_inj c _ _ 2).trans (final_row m c)
  rw [hrow]
  funext j
  simp only [Host.reduceAdd, Ideal.hostReduceAdd_def]
  refine (Ideal.hostReduceAdd_total _ (fun b => b.elim0) (nearestRow m c) _ j).trans ?_
  unfold total
  refine congrArg₂ (· + ·) rfl ?_
  rw [sum_idx2, Fintype.sum_unique]
  refine Finset.sum_congr rfl fun I _ => ?_
  rfl

/-- The sampled a-points as the region finds them: the host's column lookup of the first argument at the first index
    vector, a negative index first moved up by the number of columns. -/
theorem sampled_a (c : Dev nD) :
    (V m c main_v6 : S3x8192.Idx → EReal)
      = Host.gather gather_S3x16384_S8192x1_S3x8192_0_1_n_n_1_1_31 (m ((c : Thread nD τ).loc main_arg0))
          (broadcastInDim S8192x1 ![0] bcast_S8192_S8192x1_0
            (select (cmpi .slt (m ((c : Thread nD τ).loc main_arg2)) (broadcastInDim S8192 ![] bcast_S_S8192 (constantI S_ 32 0#32)))
              (addi (m ((c : Thread nD τ).loc main_arg2)) (broadcastInDim S8192 ![] bcast_S_S8192 (constantI S_ 32 16384#32)))
              (m ((c : Thread nD τ).loc main_arg2)))) := by
  show StableHlo.after hostOps0 (fun b => m (c, b)) (Proc.devRef .tc main_v6) = _
  after_results

/-- The sampled b-points likewise, of the second argument at the second index vector. -/
theorem sampled_b (c : Dev nD) :
    (V m c main_v13 : S3x8192.Idx → EReal)
      = Host.gather gather_S3x16384_S8192x1_S3x8192_0_1_n_n_1_1_31 (m ((c : Thread nD τ).loc main_arg1))
          (broadcastInDim S8192x1 ![0] bcast_S8192_S8192x1_0
            (select (cmpi .slt (m ((c : Thread nD τ).loc main_arg3)) (broadcastInDim S8192 ![] bcast_S_S8192 (constantI S_ 32 0#32)))
              (addi (m ((c : Thread nD τ).loc main_arg3)) (broadcastInDim S8192 ![] bcast_S_S8192 (constantI S_ 32 16384#32)))
              (m ((c : Thread nD τ).loc main_arg3)))) := by
  show StableHlo.after hostOps0 (fun b => m (c, b)) (Proc.devRef .tc main_v13) = _
  after_results

/-- The kernel program's result, as one number: `total` of the two sampled arrays. -/
def result (c : Dev nD) : S_.Idx → EReal := fun _ =>
  total zero top two
    (Host.gather gather_S3x16384_S8192x1_S3x8192_0_1_n_n_1_1_31 (m ((c : Thread nD τ).loc main_arg0))
      (broadcastInDim S8192x1 ![0] bcast_S8192_S8192x1_0
        (select (cmpi .slt (m ((c : Thread nD τ).loc main_arg2)) (broadcastInDim S8192 ![] bcast_S_S8192 (constantI S_ 32 0#32)))
          (addi (m ((c : Thread nD τ).loc main_arg2)) (broadcastInDim S8192 ![] bcast_S_S8192 (constantI S_ 32 16384#32)))
          (m ((c : Thread nD τ).loc main_arg2)))))
    (Host.gather gather_S3x16384_S8192x1_S3x8192_0_1_n_n_1_1_31 (m ((c : Thread nD τ).loc main_arg1))
      (broadcastInDim S8192x1 ![0] bcast_S8192_S8192x1_0
        (select (cmpi .slt (m ((c : Thread nD τ).loc main_arg3)) (broadcastInDim S8192 ![] bcast_S_S8192 (constantI S_ 32 0#32)))
          (addi (m ((c : Thread nD τ).loc main_arg3)) (broadcastInDim S8192 ![] bcast_S_S8192 (constantI S_ 32 16384#32)))
          (m ((c : Thread nD τ).loc main_arg3)))))

theorem tail_result (c : Dev nD) :
    Pipeline.afterTail₀ cfgs (dats m) 0 (V0 m) [hostOps1] c main_v15 = result m c := by
  refine (tail_eq m c).trans ?_
  unfold result
  rw [sampled_a m c, sampled_b m c]
  rfl

/-- THE KERNEL PROGRAM'S RUN: every weakly fair execution terminates with the result at `result` and the four
    arguments as launched. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  What the reference program returns, on the extended reals: the same `total` of its two sampled arrays.
  The reference transposes each sampled array to one point per row and back, which reads every entry where it was;
  its squared lengths are sums along a row started from the zero word (0 + Σ = Σ); it adds the a-point's squared
  length first and the b-point's second, where `dblk` has them the other way round (addition commutes); its inner
  product is the same sum of three products; its minimum over the b-points is the fold of `min` from the +∞ word; and
  its final sum starts from the zero word.
-/
import proofs.«101776_j67740224192625_2_alg».proof.Proof.Gen.ReferenceIdeal.Read
import proofs.«101776_j67740224192625_2_alg».proof.Proof.ChamferDist
import proofs.«101776_j67740224192625_2_alg».proof.Proof.LibColReduce
import Idealize.ShloMosaic.PureOps.Ideal.Laws
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Chamfer Cert.Bridge.ColReduce

abbrev zero : EReal := Ideal.ofBits .f32 0x00000000#32
abbrev top : EReal := Ideal.ofBits .f32 0x7F800000#32
abbrev two : EReal := Ideal.ofBits .f32 0x40000000#32

variable (x0 x1 : (⟨S3x16384, .f32⟩ : BufTy).Contents (Elt Ideal)) (x2 x3 : (⟨S8192, .i32⟩ : BufTy).Contents (Elt Ideal))

/-- The squared length of a-point `I`. -/
theorem sqa_apply (I : Fin 8192) :
    val_main_v17 (F := Ideal) x0 x2 (ix1 I) = sqcol (val_main_v6 (F := Ideal) x0 x2 : S3x8192.Idx → EReal) I := by
  rw [val_main_v17_apply, val_main_cst_apply]
  show Ideal.ofBits .f32 0x00000000#32 + _ = _
  rw [Ideal.ofBits_zero_f32, zero_add]
  unfold sqcol
  refine Finset.sum_congr rfl fun cc _ => ?_
  rw [val_main_v16_apply, val_main_v7_apply]
  have e : idx_main_v7 (idx_main_v17 (ix1 I) cc) = ix2 cc I := funext fun a => Fin.ext (by
    match a with
    | ⟨0, _⟩ => rfl
    | ⟨1, _⟩ => rfl)
  rw [e]
  rfl

/-- The squared length of b-point `k`. -/
theorem sqb_apply (k : Fin 8192) :
    val_main_v19 (F := Ideal) x1 x3 (ix1 k) = sqcol (val_main_v14 (F := Ideal) x1 x3 : S3x8192.Idx → EReal) k := by
  rw [val_main_v19_apply, val_main_cst_3_apply]
  show Ideal.ofBits .f32 0x00000000#32 + _ = _
  rw [Ideal.ofBits_zero_f32, zero_add]
  unfold sqcol
  refine Finset.sum_congr rfl fun cc _ => ?_
  rw [val_main_v18_apply, val_main_v15_apply]
  have e : idx_main_v15 (idx_main_v19 (ix1 k) cc) = ix2 cc k := funext fun a => Fin.ext (by
    match a with
    | ⟨0, _⟩ => rfl
    | ⟨1, _⟩ => rfl)
  rw [e]
  rfl

/-- The inner product of b-point `k` and a-point `I`. -/
theorem cross_apply (k I : Fin 8192) :
    val_main_v26 (F := Ideal) x0 x1 x2 x3 (ix2 k I)
      = ∑ cc : Fin 3, (val_main_v14 (F := Ideal) x1 x3 : S3x8192.Idx → EReal) (ix2 cc k)
          * (val_main_v6 (F := Ideal) x0 x2 : S3x8192.Idx → EReal) (ix2 cc I) := by
  rw [val_main_v26_apply]
  refine Finset.sum_congr rfl fun cc _ => ?_
  rw [val_main_v15_apply, val_main_v25_apply, val_main_v7_apply]
  have el : idx_main_v15 (lidx_main_v26 (ix2 k I) cc) = ix2 cc k := funext fun a => Fin.ext (by
    match a with
    | ⟨0, _⟩ => rfl
    | ⟨1, _⟩ => rfl)
  have er : idx_main_v7 (idx_main_v25 (ridx_main_v26 (ix2 k I) cc)) = ix2 cc I := funext fun a => Fin.ext (by
    match a with
    | ⟨0, _⟩ => rfl
    | ⟨1, _⟩ => rfl)
  rw [el, er]

/-- The squared distance of b-point `k` and a-point `I`. -/
theorem dist_apply (k I : Fin 8192) :
    val_main_v29 (F := Ideal) x0 x1 x2 x3 (ix2 k I)
      = dblk two (val_main_v6 (F := Ideal) x0 x2 : S3x8192.Idx → EReal) (val_main_v14 (F := Ideal) x1 x3 : S3x8192.Idx → EReal) k I := by
  rw [val_main_v29_apply, val_main_v24_apply, val_main_v28_apply, val_main_v22_apply, val_main_v20_apply,
    val_main_v23_apply, val_main_v21_apply, val_main_v27_apply, val_main_cst_4_apply]
  have ea : idx_main_v20 (idx_main_v22 (ix2 k I)) = ix1 I := funext fun a => Fin.ext (by
    match a with
    | ⟨0, _⟩ => rfl)
  have eb : idx_main_v21 (idx_main_v23 (ix2 k I)) = ix1 k := funext fun a => Fin.ext (by
    match a with
    | ⟨0, _⟩ => rfl)
  rw [ea, eb, sqa_apply, sqb_apply, cross_apply]
  unfold dblk
  show (_ + _) - _ * _ = _
  rw [add_comm]
  rfl

/-- The least squared distance from a-point `I` to the b-points. -/
theorem nearest_apply (I : Fin 8192) :
    val_main_v30 (F := Ideal) x0 x1 x2 x3 (ix1 I)
      = nearest top two (val_main_v6 (F := Ideal) x0 x2 : S3x8192.Idx → EReal) (val_main_v14 (F := Ideal) x1 x3 : S3x8192.Idx → EReal) I := by
  have h : S8192x8192.Reduces [0] S8192 := by decide
  unfold val_main_v30
  refine (hostMincol_apply _ _ reducesTo_S8192x8192_S8192_d0 h h_S_ I).trans ?_
  unfold nearest
  exact congrArg (fun f => (Finset.univ : Finset (Fin 8192)).fold min top f)
    (funext fun k => dist_apply x0 x1 x2 x3 k I)

/-- THE REFERENCE'S RESULT: `total` of its two sampled arrays. -/
theorem result_eq :
    val_main_v31 (F := Ideal) x0 x1 x2 x3
      = fun _ => total zero top two (val_main_v6 (F := Ideal) x0 x2 : S3x8192.Idx → EReal)
          (val_main_v14 (F := Ideal) x1 x3 : S3x8192.Idx → EReal) := by
  funext i
  rw [val_main_v31_apply, val_main_cst_6_apply]
  unfold total
  refine congrArg₂ (· + ·) rfl ?_
  rw [sum_idx1]
  exact Finset.sum_congr rfl fun I _ => nearest_apply x0 x1 x2 x3 I

end Cert.ReferenceIdeal.RefValue

end
-- ==== Proof.lean ====
/-
  The kernel and its reference compute one number from two point sets in space.
  Both sample 8192 columns of each argument array by the same index arithmetic (a negative index is first moved up by
  the number of columns, then the column is looked up), giving a-points and b-points with three coordinates each.
  For a b-point k and an a-point i the squared distance is spelt (|b_k|² + |a_i|²) − 2·⟨b_k, a_i⟩; the result is the
  sum over the a-points of the least such distance over all b-points.

  The reference forms the whole 8192 × 8192 table of distances, takes each column's minimum from +∞ and sums the
  minima from 0. The kernel walks the table in blocks of 2048 b-points by 1024 a-points: a row of 1024 running minima
  is started afresh at +∞ on the first b-block of each a-block, lowered by each block's column minima, and copied to
  the result row after the fourth b-block; a host line then sums the result row from 0.

  On the extended reals the two agree for every input: a minimum taken block by block is the minimum of the whole
  (`min` is associative, commutative and idempotent, so the starting value may enter once per block), the two squared
  lengths may be added in either order, and the three-term sums, the products and the factor 2.0 are spelt alike on
  both sides. No law used here needs the inputs to be finite.

  Modules: LibRunMin (running minima), LibColReduce (reductions down the rows, read at a column), LibLayout (a column
  repeated along the rows), ChamferDist (the quantity), Pieces and Payload (the kernel body: what it
  stores, and its arithmetic entry by entry), Blocks (which points a grid position sees), Running (the row of running
  minima, by induction on the position), KernelValue (the result row, the host sum, the kernel's run), RefValue (the
  reference's stages read down to the same quantity).
-/
import proofs.«101776_j67740224192625_2_alg».proof.Defs
import proofs.«101776_j67740224192625_2_alg».proof.Proof.Gen.Kernel
import proofs.«101776_j67740224192625_2_alg».proof.Proof.Gen.Kernel.Frame
import proofs.«101776_j67740224192625_2_alg».proof.Proof.Gen.KernelIdeal
import proofs.«101776_j67740224192625_2_alg».proof.Proof.Gen.KernelIdeal.Frame
import proofs.«101776_j67740224192625_2_alg».proof.Proof.Gen.ReferenceIdeal
import proofs.«101776_j67740224192625_2_alg».proof.Proof.Gen.ReferenceIdeal.Run
import proofs.«101776_j67740224192625_2_alg».proof.Proof.Gen.ReferenceIdeal.Read
import proofs.«101776_j67740224192625_2_alg».proof.Proof.Gen.Pre_finite_inputs
import proofs.«101776_j67740224192625_2_alg».proof.Proof.KernelValue
import proofs.«101776_j67740224192625_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel on the extended reals. -/
theorem preserves : Cert.preserves_Kernel_KernelIdeal := trivial

/-- From memories that agree on the four arguments both programs end at the sum of least squared distances of the
    same two sampled point sets. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
